-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S512x4x256 : Shape := ⟨3, ![512, 4, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S512x4x256 : S_.BroadcastsInDim S512x4x256 (![] : Fin 0 → Fin S512x4x256.rank)
  reducesTo_S512x4x256_S_d0_1_2 : S512x4x256.ReducesTo [0, 1, 2] S_

variable [Facts]

def fn {F : FTy → Type} [FloatOps F] (main_arg0 : FVec F S16384x256 .f32) (main_arg1 : FVec F S512x4x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S512x4x256 .f32 := Host.absf main_arg1
  let main_cst_0 : FVec F S_ .f32 := constant S_ .f32 0x7F800000#32
  let main_v5 : FVec F S512x4x256 .f32 := broadcastInDim S512x4x256 ![] bcast_S_S512x4x256 main_cst_0
  let main_v6 : IVec S512x4x256 1 := cmpf .olt main_v4 main_v5
  let main_c_1 : IVec S_ 1 := constantI S_ 1 1#1
  let main_v7 : IVec S_ 1 := (fun x v => Host.reduce IntOp.andi x v reducesTo_S512x4x256_S_d0_1_2 h_S_) main_v6 main_c_1
  let main_v8 : IVec S_ 1 := andi main_v3 main_v7
  main_v8
-- ==== Kernel.lean ====
abbrev S16384x256 : Shape := ⟨2, ![16384, 256]⟩
abbrev S512x4x256 : Shape := ⟨3, ![512, 4, 256]⟩
abbrev S4x512x256 : Shape := ⟨3, ![4, 512, 256]⟩
abbrev S2048x256 : Shape := ⟨2, ![2048, 256]⟩
abbrev S16384x512 : Shape := ⟨2, ![16384, 512]⟩
abbrev S4096x256 : Shape := ⟨2, ![4096, 256]⟩
abbrev S4096x512 : Shape := ⟨2, ![4096, 512]⟩
abbrev S2048 : Shape := ⟨1, ![2048]⟩
abbrev S2048x1 : Shape := ⟨2, ![2048, 1]⟩
abbrev S4096 : Shape := ⟨1, ![4096]⟩
abbrev S4096x1 : Shape := ⟨2, ![4096, 1]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S512x4x256, .f32⟩
  | .hbm, ⟨2, _⟩ => ⟨S4x512x256, .f32⟩
  | .hbm, ⟨3, _⟩ => ⟨S2048x256, .f32⟩
  | .hbm, ⟨4, _⟩ => ⟨S2048x256, .bf16⟩
  | .hbm, ⟨5, _⟩ => ⟨S16384x512, .f32⟩
  | .local _ .vmem, ⟨0, _⟩ => ⟨S4096x256, .f32⟩
  | .local _ .vmem, ⟨1, _⟩ => ⟨S4096x256, .f32⟩
  | .local _ .vmem, ⟨2, _⟩ => ⟨S2048x256, .bf16⟩
  | .local _ .vmem, ⟨3, _⟩ => ⟨S4096x512, .f32⟩
  | .local _ .vmem, ⟨4, _⟩ => ⟨S4096x512, .f32⟩
  | .local _ .vmem, ⟨5, _⟩ => ⟨S2048x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x4x256_S4x512x256_1_0_2 : S512x4x256.Transposes [1, 0, 2] S4x512x256
  shapeCasts_S4x512x256_S2048x256 : S4x512x256.ShapeCasts S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S2048x256_S512x256_0_0 : ∀ a, (![0, 0] : Fin 2 → Nat) a + S512x256.size a ≤ S2048x256.size a
  h_S512x256 : 0 < S512x256.numel
  inb_S2048x256_S512x256_512_0 : ∀ a, (![512, 0] : Fin 2 → Nat) a + S512x256.size a ≤ S2048x256.size a
  inb_S2048x256_S512x256_1024_0 : ∀ a, (![1024, 0] : Fin 2 → Nat) a + S512x256.size a ≤ S2048x256.size a
  inb_S2048x256_S512x256_1536_0 : ∀ a, (![1536, 0] : Fin 2 → Nat) a + S512x256.size a ≤ S2048x256.size a
  inb_S4096x512_S4096x512_0_0 : ∀ a, (![0, 0] : Fin 2 → Nat) a + S4096x512.size a ≤ S4096x512.size a
  h_S4096x512 : 0 < S4096x512.numel
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S16384x512.size a
  hwx0_2 : ∀ i : grid0.Coords, EltTy.bits .f32 = 32 ∨ (Rect.block (s := S16384x512) S4096x512.size (cc0_transform_2 i) (hinb0_2 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S512x4x256 : Shape := ⟨3, ![512, 4, 256]⟩
abbrev S_ : Shape := ⟨0, ![]⟩
abbrev S16384 : Shape := ⟨1, ![16384]⟩
abbrev S16384x1 : Shape := ⟨2, ![16384, 1]⟩
abbrev S512x4 : Shape := ⟨2, ![512, 4]⟩
abbrev S512x4x1 : Shape := ⟨3, ![512, 4, 1]⟩
abbrev S16384x512x4 : Shape := ⟨3, ![16384, 512, 4]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S512x4x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x256, .f32⟩
  | .hbm, ⟨11, _⟩ => ⟨S16384x256, .f32⟩
  | .hbm, ⟨12, _⟩ => ⟨S512x4x256, .f32⟩
  | .hbm, ⟨13, _⟩ => ⟨S_, .f32⟩
  | .hbm, ⟨14, _⟩ => ⟨S512x4, .f32⟩
  | .hbm, ⟨15, _⟩ => ⟨S512x4x1, .f32⟩
  | .hbm, ⟨16, _⟩ => ⟨S512x4x1, .f32⟩
  | .hbm, ⟨17, _⟩ => ⟨S_, .f32⟩
  | .hbm, ⟨18, _⟩ => ⟨S512x4x1, .f32⟩
  | .hbm, ⟨19, _⟩ => ⟨S512x4x1, .f32⟩
  | .hbm, ⟨20, _⟩ => ⟨S512x4x256, .f32⟩
  | .hbm, ⟨21, _⟩ => ⟨S512x4x256, .f32⟩
  | .hbm, ⟨22, _⟩ => ⟨S16384x512x4, .f32⟩
  | .hbm, ⟨23, _⟩ => ⟨S_, .f32⟩
  | .hbm, ⟨24, _⟩ => ⟨S16384x512x4, .f32⟩
  | .hbm, ⟨25, _⟩ => ⟨S16384x512x4, .f32⟩
  | .hbm, ⟨26, _⟩ => ⟨S_, .f32⟩
  | .hbm, ⟨27, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  reducesTo_S512x4x256_S512x4_d2 : S512x4x256.ReducesTo [2] S512x4
  bcast_S512x4_S512x4x1_0_1 : S512x4.BroadcastsInDim S512x4x1 (![0, 1] : Fin 2 → Fin S512x4x1.rank)
  bcast_S_S512x4x1 : S_.BroadcastsInDim S512x4x1 (![] : Fin 0 → Fin S512x4x1.rank)
  bcast_S512x4x1_S512x4x256_0_1_2 : S512x4x1.BroadcastsInDim S512x4x256 (![0, 1, 2] : Fin 3 → Fin S512x4x256.rank)
  bcast_S_S16384x512x4 : S_.BroadcastsInDim S16384x512x4 (![] : Fin 0 → Fin S16384x512x4.rank)
  reducesTo_S16384x512x4_S16384x512_d2 : S16384x512x4.ReducesTo [2] S16384x512
  dot_S16384x256_S512x4x256_S16384x512x4_1_2_0_01_n_n_wf : DotDims.WF S16384x256 S512x4x256 S16384x512x4 [1] [2] [0] [0, 1] [] []

variable [Facts₀]

def dot_S16384x256_S512x4x256_S16384x512x4_1_2_0_01_n_n : DotDims S16384x256 S512x4x256 S16384x512x4 where
  lhsContracting := [1]
  rhsContracting := [2]
  lhsNonContracting := [0]
  rhsNonContracting := [0, 1]
  lhsBatch := []
  rhsBatch := []
  wf := dot_S16384x256_S512x4x256_S16384x512x4_1_2_0_01_n_n_wf

class Facts : Prop extends Facts₀ where

variable [Facts]
-- ==== Proof.Pieces.lean ====
/-
  What one run of the kernel body leaves behind, as values.

  The body keeps the normalised centroid table in a scratch buffer. At the first grid point it computes the table from
  the centroid block (`k0_pay1`) and stores it whole; at every point it then reads the table back as four slabs of 512
  rows (one slab per centroid number `k`), and stores into the output block `k0_pay2` of the code block and the four
  slabs. So with `body x z` the output block as a function of the code block `x` and the table `z`:
    first point  : the scratch ends at `k0_pay1 (centroid block)`, the output block at `body x (k0_pay1 (centroid block))`;
    other points : the scratch is unchanged, the output block is `body x (scratch)`.
  A store through the whole buffer leaves its payload; a load through a rectangle of what one whole store left reads
  the payload through that rectangle.
-/
import proofs.«147638_g82910048682287_cont_9to1_m_1149_22_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- The four slabs of the table: rows `512·k … 512·k + 511`, for `k = 0, 1, 2, 3`. -/
abbrev slab0 (z : Vec F S2048x256 .bf16) : Vec F S512x256 .bf16 :=
  View.ld z (Rect.unit (s := S2048x256) ![0, 0] S512x256.size Facts₀.inb_S2048x256_S512x256_0_0)
abbrev slab1 (z : Vec F S2048x256 .bf16) : Vec F S512x256 .bf16 :=
  View.ld z (Rect.unit (s := S2048x256) ![512, 0] S512x256.size Facts₀.inb_S2048x256_S512x256_512_0)
abbrev slab2 (z : Vec F S2048x256 .bf16) : Vec F S512x256 .bf16 :=
  View.ld z (Rect.unit (s := S2048x256) ![1024, 0] S512x256.size Facts₀.inb_S2048x256_S512x256_1024_0)
abbrev slab3 (z : Vec F S2048x256 .bf16) : Vec F S512x256 .bf16 :=
  View.ld z (Rect.unit (s := S2048x256) ![1536, 0] S512x256.size Facts₀.inb_S2048x256_S512x256_1536_0)

/-- The output block from the code block `x` and the normalised centroid table `z`. -/
def body (x : Vec F S4096x256 .f32) (z : Vec F S2048x256 .bf16) : Vec F S4096x512 .f32 :=
  k0_pay2 x (slab0 z) (slab1 z) (slab2 z) (slab3 z)

/-- A load, through any rectangle, of what ONE store through the whole table left reads the store's payload there. -/
theorem readCov_whole (v : View sig .tc .vmem S2048x256 .bf16) (w : S2048x256.Idx → Elt F .bf16) (r : Rect S2048x256) :
    v.readCov [(⟨Rect.unit (s := S2048x256) ![0, 0] S2048x256.size Facts₀.inb_S2048x256_S2048x256_0_0, w⟩ : View.Piece (Elt F) S2048x256 .bf16)] r
      = View.ld w r := by
  rw [View.readCov_eq_canon_ld _ _ _ (fun y => ⟨_, List.mem_singleton_self _, View.mem_set_unit_zero hz Facts₀.inb_S2048x256_S2048x256_0_0 y⟩),
    View.canon_unit_zero hz]

/-- First point: the scratch ends holding the table computed from the centroid block. -/
theorem scratch_first (c : Dev nD) (i : grid0.Coords) (a1 : Memref sig .tc .vmem S4096x256 .f32) (h1 : a1.IsWhole)
    (a2 : Memref sig .tc .vmem S2048x256 .bf16) (h2 : a2.IsWhole) (a3 : Memref sig .tc .vmem S4096x512 .f32) (h3 : a3.IsWhole)
    (a4 : Memref sig .tc .vmem S2048x256 .bf16) (h4 : a4.IsWhole) (hc : cond0_0 i)
    (x0 : Vec F S4096x256 .f32) (x1 : Vec F S2048x256 .bf16) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz]
  simp only [View.readAt_eq_ld, h2.read_unread, View.ld_unit_zero (S := S2048x256) hz]

/-- First point: the output block is `body` of the code block and that table. -/
theorem out_first (c : Dev nD) (i : grid0.Coords) (a1 : Memref sig .tc .vmem S4096x256 .f32) (h1 : a1.IsWhole)
    (a2 : Memref sig .tc .vmem S2048x256 .bf16) (h2 : a2.IsWhole) (a3 : Memref sig .tc .vmem S4096x512 .f32) (h3 : a3.IsWhole)
    (a4 : Memref sig .tc .vmem S2048x256 .bf16) (h4 : a4.IsWhole) (hc : cond0_0 i)
    (x0 : Vec F S4096x256 .f32) (x1 : Vec F S2048x256 .bf16) :
    out0_A_2 c i a1 h1 a2 h2 a3 h3 a4 h4 hc x0 x1 = body x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S4096x256) hz,
    View.ld_unit_zero (S := S2048x256) hz]
  unfold body
  exact congr (congr (congr (congrArg (k0_pay2 x0) (readCov_whole a4.view (k0_pay1 x1) _)) (readCov_whole a4.view (k0_pay1 x1) _))
    (readCov_whole a4.view (k0_pay1 x1) _)) (readCov_whole a4.view (k0_pay1 x1) _)

/-- Other points: the output block is `body` of the code block and the table the point before left. -/
theorem out_later (c : Dev nD) (i : grid0.Coords) (a1 : Memref sig .tc .vmem S4096x256 .f32) (h1 : a1.IsWhole)
    (a2 : Memref sig .tc .vmem S2048x256 .bf16) (h2 : a2.IsWhole) (a3 : Memref sig .tc .vmem S4096x512 .f32) (h3 : a3.IsWhole)
    (a4 : Memref sig .tc .vmem S2048x256 .bf16) (h4 : a4.IsWhole) (hc : ¬cond0_0 i)
    (x0 : Vec F S4096x256 .f32) (x1 : Vec F S2048x256 .bf16) (xs : Vec F S2048x256 .bf16) :
    out0_B_2 c i a1 h1 a2 h2 a3 h3 a4 h4 hc x0 x1 xs = body x0 xs := by
  unfold out0_B_2
  rw [View.read_writes_eq_canon _ _ _ (cover0_B_2 c i a1 h1 a2 h2 a3 h3 a4 h4 hc x0 x1 xs)]
  unfold kernelRun0_B
  dsimp only
  rw [View.canon_unit_zero hz]
  simp only [View.readAt_eq_ld, h1.read_unread, h4.read_unread, View.ld_unit_zero (S := S4096x256) hz]
  rfl

end Cert.KernelIdeal.Pieces

end
-- ==== Proof.Carried.lean ====
/-
  The scratch buffer carried across the grid, and each point's output block.

  Only the first point writes the scratch (the normalised centroid table, from the centroid block, which is the same
  block at every point); every later point leaves it alone. So after every point the scratch holds the first point's
  table, and the output block of point `n` is `body` of that point's code block and that one table — by induction on
  the point.
-/
import proofs.«147638_g82910048682287_cont_9to1_m_1149_22_alg».proof.Proof.Pieces

set_option maxRecDepth 16384

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F] [Named F]
variable (m : (ℓ : Loc nD τ sig) → Buf (Elt F) ℓ)

theorem N_pos : 0 < cfg0.N := by rw [show cfg0.N = 4 from N_0]; decide

/-- The table the first point computes from the centroid block. -/
def table (c : Dev nD) : Vec F S2048x256 .bf16 := k0_pay1 (iblk m c 1 ⟨0, N_pos⟩)

/-- At a first point (the scratch is written): the output block and the scratch, from the point's two input blocks. -/
theorem at_first (c : Dev nD) (t : Fin cfg0.N) (h0 : t.val % 4 = 0) :
    outsAt0 m c t.val t.isLt = (body (iblk m c 0 t) (k0_pay1 (iblk m c 1 t)), k0_pay1 (iblk m c 1 t)) := by
  have e1 := out_first (F := F) c (grid0.coords t) (ms0_0 t) (hs0_0 t) (ms0_1 t) (hs0_1 t) (ms0_2 t) (hs0_2 t)
      scM0_0 (Memref.isWhole_whole _) ((hcond0_0 t).mpr h0) (iblk m c 0 t) (iblk m c 1 t)
  have e2 := scratch_first (F := F) c (grid0.coords t) (ms0_0 t) (hs0_0 t) (ms0_1 t) (hs0_1 t) (ms0_2 t) (hs0_2 t)
      scM0_0 (Memref.isWhole_whole _) ((hcond0_0 t).mpr h0) (iblk m c 0 t) (iblk m c 1 t)
  rw [outsAt0_A m c t h0, e1, e2]

/-- At a later point (the scratch is only read): the output block from the point's code block and the scratch the point
    before left, which stays. -/
theorem at_later (c : Dev nD) (t : Fin cfg0.N) (h0 : ¬t.val % 4 = 0) :
    outsAt0 m c t.val t.isLt
      = (body (iblk m c 0 t) (outsAt0 m c (t.val - 1) (Nat.lt_of_le_of_lt (Nat.sub_le _ _) t.isLt)).2,
          (outsAt0 m c (t.val - 1) (Nat.lt_of_le_of_lt (Nat.sub_le _ _) t.isLt)).2) := by
  have e1 := out_later (F := F) c (grid0.coords t) (ms0_0 t) (hs0_0 t) (ms0_1 t) (hs0_1 t) (ms0_2 t) (hs0_2 t)
      scM0_0 (Memref.isWhole_whole _) (fun hh => h0 ((hcond0_0 t).mp hh)) (iblk m c 0 t) (iblk m c 1 t)
      (outsAt0 m c (t.val - 1) (Nat.lt_of_le_of_lt (Nat.sub_le _ _) t.isLt)).2
  rw [outsAt0_B m c t h0, e1]
  unfold sout0_B_0
  rfl

/-- After point `n`: the output block is `body` of the point's code block and the table; the scratch holds the table. -/
theorem outsAt_eq (c : Dev nD) : ∀ (n : ℕ) (h : n < cfg0.N),
    outsAt0 m c n h = (body (iblk m c 0 ⟨n, h⟩) (table m c), table m c)
  | 0, h => at_first m c ⟨0, h⟩ rfl
  | n + 1, h => by
    have hN : cfg0.N = 4 := N_0
    have hB : ¬(⟨n + 1, h⟩ : Fin cfg0.N).val % 4 = 0 := by dsimp only; omega
    have ih := outsAt_eq c n (Nat.lt_of_succ_lt h)
    refine (at_later m c ⟨n + 1, h⟩ hB).trans ?_
    show (body (iblk m c 0 ⟨n + 1, h⟩) (outsAt0 m c n _).2, (outsAt0 m c n _).2) = _
    rw [ih]

end Cert.KernelIdeal.Carried

end
-- ==== Proof.Spec.lean ====
/-
  The mathematics of the certificate, with no program in sight.

  Both programs compute, for a code row `b` and a class `c`,
      out[b, c] = 1 − max_k ⟨ĉodes[b, ·], ĉents[c, k, ·]⟩ = min_k (1 − ⟨ĉodes[b, ·], ĉents[c, k, ·]⟩),
  where a hat is the L2 normalisation of a row with a floor: the kernel multiplies a row entry `x` by
  `rsqrt (max s ε²)` (`s` the row's sum of squares), the reference divides it by `max (√s) ε`.
  On the extended reals these are one number for every `s ≥ 0` (finite or `⊤`), because the square root is monotone
  and `√(ε²) = ε`: `√(max s ε²) = max (√s) ε`; at `s = ⊤` both sides are `x · 0`. A sum of squares of extended reals
  is never negative, so no finiteness of the inputs is needed. `1 − ·` is antitone, so it turns the maximum over
  the four centroids of a class into the minimum, and the minimum's initial value `⊤` is neutral.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The two literals -/

/-- The reference's floor `ε` on a norm: the real its f32 word `0x2B8CBCCC` denotes, `2305843 / 2^61`. -/
def epsR : ℝ := 2305843 / 2305843009213693952

theorem epsR_pos : 0 < epsR := by unfold epsR; norm_num

/-- The kernel's floor on a sum of squares, as the certificate's table names it: `ε²`. -/
def epsSq : EReal := ((5316911940649 / 5316911983139663491615228241121378304 : ℝ) : EReal)

theorem epsSq_eq : epsSq = ((epsR ^ 2 : ℝ) : EReal) := by
  unfold epsSq epsR; congr 1; norm_num

/-- The word `0x2B8CBCCC` denotes `ε`. -/
theorem ofBits_eps : Ideal.ofBits .f32 0x2B8CBCCC#32 = ((epsR : ℝ) : EReal) := by
  unfold epsR
  simp [Ideal.ofBits, Ideal.ieee, -EReal.coe_mul]; norm_num

/-- The word `0x7F800000` denotes `+∞`. -/
theorem ofBits_inf : Ideal.ofBits .f32 0x7F800000#32 = ⊤ := by
  simp [Ideal.ofBits, Ideal.ieee]

/-! ## One normalised entry, two spellings -/

/-- An entry `x` of a row whose sum of squares is `s`, normalised the kernel's way. -/
def nrm (x s : EReal) : EReal := x * Ideal.rsqrt (max s epsSq)

theorem sq_nonneg' (x : EReal) : 0 ≤ x * x := by
  rcases le_total 0 x with h | h
  · exact EReal.mul_nonneg h h
  · exact EReal.mul_nonneg_iff.mpr (.inr ⟨h, h⟩)

theorem sumsq_nonneg {ι : Type*} (s : Finset ι) (f : ι → EReal) : 0 ≤ ∑ i ∈ s, f i * f i :=
  Finset.sum_nonneg fun i _ => sq_nonneg' (f i)

/-- The kernel's `x · rsqrt (max s ε²)` is the reference's `x / max (√s) ε` for every `s ≥ 0`. -/
theorem nrm_eq_div (x s : EReal) (hs : 0 ≤ s) :
    nrm x s = Ideal.div x (max (Ideal.sqrt s) (Ideal.ofBits .f32 0x2B8CBCCC#32)) := by
  unfold nrm
  rw [ofBits_eps, epsSq_eq]
  induction s using EReal.rec with
  | bot => exact absurd hs (by simp)
  | top =>
    have h1 : max (⊤ : EReal) ((epsR ^ 2 : ℝ) : EReal) = ⊤ := max_eq_left le_top
    have h2 : max (Ideal.sqrt ⊤) ((epsR : ℝ) : EReal) = ⊤ := max_eq_left le_top
    rw [h1, h2]
    show x * 0 = Ideal.div x ⊤
    unfold Ideal.div
    rw [if_neg (by simp), EReal.inv_top]
  | coe r =>
    have hr : 0 ≤ r := EReal.coe_nonneg.mp hs
    have e1 : max ((r : ℝ) : EReal) ((epsR ^ 2 : ℝ) : EReal) = ((max r (epsR ^ 2) : ℝ) : EReal) :=
      (EReal.coe_strictMono.monotone.map_max).symm
    have hpos : 0 < max r (epsR ^ 2) := lt_max_of_lt_right (pow_pos epsR_pos 2)
    have e2 : Ideal.rsqrt ((max r (epsR ^ 2) : ℝ) : EReal) = (((Real.sqrt (max r (epsR ^ 2)))⁻¹ : ℝ) : EReal) := by
      show (if max r (epsR ^ 2) < 0 then ⊥ else if max r (epsR ^ 2) = 0 then ⊤ else (((Real.sqrt (max r (epsR ^ 2)))⁻¹ : ℝ) : EReal)) = _
      rw [if_neg (not_lt.mpr hpos.le), if_neg hpos.ne']
    have e3 : Ideal.sqrt ((r : ℝ) : EReal) = ((Real.sqrt r : ℝ) : EReal) := by
      show (if r < 0 then ⊥ else ((Real.sqrt r : ℝ) : EReal)) = _
      rw [if_neg (not_lt.mpr hr)]
    have e4 : max ((Real.sqrt r : ℝ) : EReal) ((epsR : ℝ) : EReal) = ((max (Real.sqrt r) epsR : ℝ) : EReal) :=
      (EReal.coe_strictMono.monotone.map_max).symm
    have e5 : Real.sqrt (max r (epsR ^ 2)) = max (Real.sqrt r) epsR := by
      rw [Real.sqrt_monotone.map_max, Real.sqrt_sq epsR_pos.le]
    have hne : max (Real.sqrt r) epsR ≠ 0 := (lt_max_of_lt_right epsR_pos).ne'
    rw [e1, e2, e3, e4, e5, Ideal.div_coe hne, one_div]

/-! ## The maximum over a class's centroids against the reference's minimum -/

/-- `a − ·` turns a maximum into a minimum. -/
theorem sub_max (a x y : EReal) : a - max x y = min (a - x) (a - y) :=
  Antitone.map_max (f := fun z => a - z) fun _ _ h => EReal.sub_le_sub le_rfl h

/-- The fold of `min` from `⊤` over four values is their minimum. -/
theorem fold_min_four (g : Fin 4 → EReal) :
    (Finset.univ : Finset (Fin 4)).fold min ⊤ g = min (min (min (g 0) (g 1)) (g 2)) (g 3) := by
  refine eq_of_forall_le_iff fun c => ?_
  rw [Finset.le_fold_min]
  simp only [Finset.mem_univ, forall_true_left, le_top, true_and, le_min_iff, Fin.forall_fin_succ, Fin.forall_fin_zero, and_true,
    and_assoc]
  rfl

/-! ## The specification -/

abbrev SCodes : Shape := ⟨2, ![16384, 256]⟩
abbrev SCents : Shape := ⟨3, ![512, 4, 256]⟩
abbrev SOut : Shape := ⟨2, ![16384, 512]⟩

/-- Entry `d` of code row `b`, normalised. -/
def codeN (X : SCodes.Idx → EReal) (b : Fin 16384) (d : Fin 256) : EReal :=
  nrm (X (ix2 b d)) (∑ e : Fin 256, X (ix2 b e) * X (ix2 b e))

/-- Entry `d` of centroid `k` of class `c`, normalised. -/
def centN (Z : SCents.Idx → EReal) (c : Fin 512) (k : Fin 4) (d : Fin 256) : EReal :=
  nrm (Z (ix3 c k d)) (∑ e : Fin 256, Z (ix3 c k e) * Z (ix3 c k e))

/-- The cosine similarity of code row `b` and centroid `k` of class `c`. -/
def sim (X : SCodes.Idx → EReal) (Z : SCents.Idx → EReal) (b : Fin 16384) (c : Fin 512) (k : Fin 4) : EReal :=
  ∑ d : Fin 256, codeN X b d * centN Z c k d

/-- The result at `(b, c)`: the word `1.0` minus the best similarity over the class's four centroids. -/
def dist (X : SCodes.Idx → EReal) (Z : SCents.Idx → EReal) (b : Fin 16384) (c : Fin 512) : EReal :=
  Ideal.ofBits .f32 0x3F800000#32 - max (max (max (sim X Z b c 0) (sim X Z b c 1)) (sim X Z b c 2)) (sim X Z b c 3)

/-- The whole result array as one function of the two argument arrays. -/
def G (X : SCodes.Idx → EReal) (Z : SCents.Idx → EReal) : SOut.Idx → EReal :=
  fun j => dist X Z (j 0) (j 1)

theorem G_apply (X : SCodes.Idx → EReal) (Z : SCents.Idx → EReal) (b : Fin 16384) (c : Fin 512) :
    G X Z (ix2 b c) = dist X Z b c := rfl

/-- The same number the reference's way: the minimum over the centroids of one minus the similarity. -/
theorem dist_eq_min (X : SCodes.Idx → EReal) (Z : SCents.Idx → EReal) (b : Fin 16384) (c : Fin 512) :
    dist X Z b c = (Finset.univ : Finset (Fin 4)).fold min ⊤
      (fun k => Ideal.ofBits .f32 0x3F800000#32 - sim X Z b c k) := by
  rw [fold_min_four]
  unfold dist
  rw [sub_max, sub_max, sub_max]

end Cert.Spec

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The body's two stored values read at an index, over the extended reals.

  `k0_pay1` (the normalised centroid table from the centroid block `w`): at row `r`, feature `d`,
      w[r, d] · rsqrt (max (Σ_e w[r, e]²) ε²).
  `k0_pay2` (the output block from the code block `x` and four slabs `z₀ … z₃` of the table): at row `p`, class `q`,
      1 − max (max (max M₀ M₁) M₂) M₃,   M_k = Σ_d (x[p, d] · rsqrt (max (Σ_e x[p, e]²) ε²)) · z_k[q, d].
  A row sum kept as a column and broadcast back along the row reads the row's sum at every entry; the matrix product
  into a zero accumulator contracts the second axis of both operands; changes of float format are the identity; the
  named floor denotes `ε²`. A slab is the table read 512·k rows further down.
-/
import proofs.«147638_g82910048682287_cont_9to1_m_1149_22_alg».proof.Proof.Gen.KernelIdeal.Skeleton
import proofs.«147638_g82910048682287_cont_9to1_m_1149_22_alg».proof.Proof.Spec
import proofs.«147638_g82910048682287_cont_9to1_m_1149_22_alg».proof.Proof.LibKeepdims
import Idealize.ShloMosaic.Lib.Pipeline.Value
import Idealize.ShloMosaic.Lib.ValueIdx
import Idealize.ShloMosaic.PureOps.Ideal.Laws
import Idealize.ShloMosaic.PureOps.IdealRules

noncomputable section

open Idealize.ShloMosaic Idealize.ShloMosaic.TcCoe Idealize.SL.Sem Idealize.ShloMosaic.ValueIdx

namespace Cert.KernelIdeal.Payload

open Cert.KernelIdeal Cert.KernelIdeal.Gen Cert.Spec

/-- The kernel's named floor on a sum of squares denotes `ε²`. -/
theorem named_eps : Named.named (F := Ideal) Cert.KernelIdeal.κ "eps_sq" (φ := .f32) 0x179ABE15#32 = epsSq :=
  IdealRules.named_const.ideal_named_scalar _ _ _ _ rfl

theorem rsqrt_apply {s : Shape} {φ : FTy} (v : FVec Ideal s φ) (i : s.Idx) : rsqrt v i = Ideal.rsqrt (v i) := rfl

/-- The sum along a row of a 2048 × 256 array. -/
theorem rowsum_table (v : FVec Ideal S2048x256 .f32) (hφ : FKind.Formats .f32) (hacc : (0x00000000#32 : BitVec 32) = FKind.add.neutral .f32 hφ)
    (r : Fin 2048) :
    multiReduction .add [1] S2048 v 0x00000000#32 Facts₀.reduces_S2048x256_S2048 hφ hacc (ix1 r) = ∑ e : Fin 256, v (ix2 r e) :=
  (Ideal.multiReduction_add_single v 0x00000000#32 Facts₀.reduces_S2048x256_S2048 hφ hacc (ix1 r)).trans
    (Finset.sum_congr rfl fun e _ => congrArg v (funext fun a => Fin.ext (by match a with | ⟨0, _⟩ => rfl | ⟨1, _⟩ => rfl)))

/-- The sum along a row of a 4096 × 256 array. -/
theorem rowsum_codes (v : FVec Ideal S4096x256 .f32) (hφ : FKind.Formats .f32) (hacc : (0x00000000#32 : BitVec 32) = FKind.add.neutral .f32 hφ)
    (p : Fin 4096) :
    multiReduction .add [1] S4096 v 0x00000000#32 Facts₀.reduces_S4096x256_S4096 hφ hacc (ix1 p) = ∑ e : Fin 256, v (ix2 p e) :=
  (Ideal.multiReduction_add_single v 0x00000000#32 Facts₀.reduces_S4096x256_S4096 hφ hacc (ix1 p)).trans
    (Finset.sum_congr rfl fun e _ => congrArg v (funext fun a => Fin.ext (by match a with | ⟨0, _⟩ => rfl | ⟨1, _⟩ => rfl)))

/-- The normalised centroid table at `(r, d)`. -/
theorem table_apply (w : FVec Ideal S2048x256 .bf16) (r : Fin 2048) (d : Fin 256) :
    k0_pay1 (F := Ideal) w (ix2 r d) = nrm (w (ix2 r d)) (∑ e : Fin 256, w (ix2 r e) * w (ix2 r e)) := by
  unfold k0_pay1
  simp only [shapeCast_self, truncf_apply, mulf_apply, extf_apply, broadcastTo_a1_ab_apply, rsqrt_apply, maximumf_apply,
    broadcast_apply, shapeCast_a_a1_apply, named_eps]
  exact congrArg (fun s : EReal => w (ix2 r d) * Ideal.rsqrt (max s epsSq))
    (rowsum_table (mulf (extf .f32 w Facts₀.bitsLt_bf16_f32) (extf .f32 w Facts₀.bitsLt_bf16_f32)) _ _ r)

abbrev DD := dot_S4096x256_S512x256_S4096x512_1_1_0_0_n_n

/-- The operands' indices at output index `j` and contraction index `k`: the left operand is read at row `j 0`, the right
    at row `j 1`, both at feature `k`. -/
theorem lhs_row (j : S4096x512.Idx) (k : DD.contr.Idx) : (DD.lhsIdx j k 0).val = (j 0).val := by
  unfold DotDims.lhsIdx
  rw [dif_neg (show ¬(0 : Fin S4096x256.rank) ∈ DD.lhsBatch by decide), dif_pos (show (0 : Fin S4096x256.rank) ∈ DD.lhsNonContracting by decide)]
  rfl
theorem lhs_feat (j : S4096x512.Idx) (k : DD.contr.Idx) : (DD.lhsIdx j k 1).val = (k ⟨0, by decide⟩).val :=
  DD.lhsIdx_val_of_single rfl j k
theorem rhs_row (j : S4096x512.Idx) (k : DD.contr.Idx) : (DD.rhsIdx j k 0).val = (j 1).val := by
  unfold DotDims.rhsIdx
  rw [dif_neg (show ¬(0 : Fin S512x256.rank) ∈ DD.rhsBatch by decide), dif_pos (show (0 : Fin S512x256.rank) ∈ DD.rhsNonContracting by decide)]
  rfl
theorem rhs_feat (j : S4096x512.Idx) (k : DD.contr.Idx) : (DD.rhsIdx j k 1).val = (k ⟨0, by decide⟩).val :=
  DD.rhsIdx_val_of_single rfl j k

/-- A 4096 × 256 block times the transpose of a 512 × 256 slab, into zero: the contraction over the 256 features. -/
theorem mm_apply (l : FVec Ideal S4096x256 .bf16) (z : FVec Ideal S512x256 .bf16) (p : Fin 4096) (q : Fin 512) :
    matmul dot_S4096x256_S512x256_S4096x512_1_1_0_0_n_n none l z (constant S4096x512 .f32 0x00000000#32) (ix2 p q)
      = ∑ d : Fin 256, l (ix2 p d) * z (ix2 q d) := by
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DD.lhsIdx (ix2 p q) ((contrEquiv1 DD 256 rfl rfl).symm k) = ix2 p k := funext fun a => Fin.ext (by
    match a with
    | ⟨0, _⟩ => exact lhs_row _ _
    | ⟨1, _⟩ => exact (lhs_feat _ _).trans hk)
  have er : DD.rhsIdx (ix2 p q) ((contrEquiv1 DD 256 rfl rfl).symm k) = ix2 q k := funext fun a => Fin.ext (by
    match a with
    | ⟨0, _⟩ => exact rhs_row _ _
    | ⟨1, _⟩ => exact (rhs_feat _ _).trans hk)
  rw [el, er]

/-- One similarity of the block: code row `p` of `x`, normalised, against row `q` of a slab `z`. -/
def blockSim (x : FVec Ideal S4096x256 .f32) (z : FVec Ideal S512x256 .bf16) (p : Fin 4096) (q : Fin 512) : EReal :=
  ∑ d : Fin 256, nrm (x (ix2 p d)) (∑ e : Fin 256, x (ix2 p e) * x (ix2 p e)) * z (ix2 q d)

/-- The output block at `(p, q)`. -/
theorem out_apply (x : FVec Ideal S4096x256 .f32) (z0 z1 z2 z3 : FVec Ideal S512x256 .bf16) (p : Fin 4096) (q : Fin 512) :
    k0_pay2 (F := Ideal) x z0 z1 z2 z3 (ix2 p q)
      = Ideal.ofBits .f32 0x3F800000#32
        - max (max (max (blockSim x z0 p q) (blockSim x z1 p q)) (blockSim x z2 p q)) (blockSim x z3 p q) := by
  unfold k0_pay2
  simp only [subf_apply, broadcast_apply, maximumf_apply, mm_apply, truncf_apply, mulf_apply, broadcastTo_a1_ab_apply, rsqrt_apply,
    shapeCast_a_a1_apply, named_eps]
  exact congrArg (fun s : EReal => Ideal.ofBits .f32 0x3F800000#32
      - max (max (max (∑ d : Fin 256, x (ix2 p d) * Ideal.rsqrt (max s epsSq) * z0 (ix2 q d))
          (∑ d : Fin 256, x (ix2 p d) * Ideal.rsqrt (max s epsSq) * z1 (ix2 q d)))
          (∑ d : Fin 256, x (ix2 p d) * Ideal.rsqrt (max s epsSq) * z2 (ix2 q d)))
          (∑ d : Fin 256, x (ix2 p d) * Ideal.rsqrt (max s epsSq) * z3 (ix2 q d)))
    (rowsum_codes (mulf x x) _ _ p)

end Cert.KernelIdeal.Payload

end
-- ==== Proof.Blocks.lean ====
/-
  What the region reads, as entries of the two argument arrays.

  The grid has four points; point `t` stages rows `4096·t … 4096·t + 4095` of the codes (window 0), the whole
  2048 × 256 centroid table that the host prepared (window 1, the same block at every point), and writes back rows
  `4096·t …` of the result (window 2). The host prepares the table from the centroids `[512, 4, 256]` by swapping the first
  two axes and flattening them: its row `512·k + c` is centroid `k` of class `c` (the change of float format is the identity
  on the extended reals).
-/
import proofs.«147638_g82910048682287_cont_9to1_m_1149_22_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The three index maps over the four points: codes and result blocks move with the point along the rows, the table's
    block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, d)` of the codes block at point `t` is entry `(4096·t + p, d)` of the codes. -/
theorem codes_block (c : Dev nD) (t : Fin cfg0.N) (p : Fin 4096) (d : Fin 256) (P : Fin 16384) (hP : P.val = 4096 * t.val + p.val) :
    (iblk m c 0 t : S4096x256.Idx → EReal) (ix2 p d) = m ((c : Thread nD τ).loc main_arg0) (ix2 P d) := by
  obtain ⟨e0, e1, -⟩ := idx_facts t
  unfold iblk
  rw [View.read_apply]
  show V m c main_arg0 (((cfg0.win 0).blk t).view.emb (ix2 p d)) = _
  rw [V_main_arg0 m c]
  refine congrArg (m ((c : Thread nD τ).loc main_arg0)) (funext fun a => Fin.ext ?_)
  match a with
  | ⟨0, _⟩ => show win0_0.index t (0 : Fin 2) * 4096 + 1 * p.val = P.val; rw [e0, hP]; omega
  | ⟨1, _⟩ => show win0_0.index t (1 : Fin 2) * 256 + 1 * d.val = d.val; rw [e1]; omega

/-- The table block at any point is the whole table as the region finds it. -/
theorem table_block (c : Dev nD) (t : Fin cfg0.N) (r : Fin 2048) (d : Fin 256) :
    (iblk m c 1 t : S2048x256.Idx → EReal) (ix2 r d) = (V m c main_v2 : S2048x256.Idx → EReal) (ix2 r d) := by
  obtain ⟨-, -, e2, e3, -⟩ := idx_facts t
  unfold iblk
  rw [View.read_apply]
  show (V m c main_v2 : S2048x256.Idx → EReal) (((cfg0.win 1).blk t).view.emb (ix2 r d)) = _
  refine congrArg (V m c main_v2 : S2048x256.Idx → EReal) (funext fun a => Fin.ext ?_)
  match a with
  | ⟨0, _⟩ => show win0_1.index t (0 : Fin 2) * 2048 + 1 * r.val = r.val; rw [e2]; omega
  | ⟨1, _⟩ => show win0_1.index t (1 : Fin 2) * 256 + 1 * d.val = d.val; rw [e3]; omega

/-- The table the region finds: the host's transpose, reshape and change of format of the centroids. -/
theorem V_table (c : Dev nD) : @Eq (S2048x256.Idx → EReal) (V m c main_v2)
    (truncf (F := Ideal) .bf16 (shapeCast S2048x256 (transpose S4x512x256 [1, 0, 2] (m ((c : Thread nD τ).loc main_arg1) : S512x4x256.Idx → EReal)
      Facts₀.transposes_S512x4x256_S4x512x256_1_0_2) Facts₀.shapeCasts_S4x512x256_S2048x256) Facts₀.bitsLt_bf16_f32) := by
  dsimp only [V, hostOps0]
  after_results
  rfl

/-- Row `512·k + q` of the table is centroid `k` of class `q`. -/
theorem table_read (c : Dev nD) (k : Fin 4) (q : Fin 512) (d : Fin 256) (R : Fin 2048) (hR : R.val = 512 * k.val + q.val) :
    (V m c main_v2 : S2048x256.Idx → EReal) (ix2 R d) = m ((c : Thread nD τ).loc main_arg1) (ix3 q k d) := by
  rw [V_table m c, truncf_apply]
  refine (shapeCast_apply _ _ (ix2 R d) (ix3 k q d) ?_).trans ?_
  · rw [Shape.rowMajor_val_three, Shape.rowMajor_val_two]
    show (k.val * 512 + q.val) * 256 + d.val = R.val * 256 + d.val
    rw [hR]; ring
  · exact transpose_apply [1, 0, 2] _ _ (ix3 k q d) (ix3 q k d) (fun b => by
      match b with
      | ⟨0, _⟩ => rfl
      | ⟨1, _⟩ => rfl
      | ⟨2, _⟩ => rfl)

/-- Entry `(p, q)` of the result block at point `t` sits at `(4096·t + p, q)` of the result. -/
theorem out_emb (t : Fin cfg0.N) (p : Fin 4096) (q : Fin 512) (P : Fin 16384) (hP : P.val = 4096 * t.val + p.val) :
    ((cfg0.win 2).blk t).view.emb (ix2 p q) = ix2 P q := by
  obtain ⟨-, -, -, -, e4, e5⟩ := idx_facts t
  refine funext fun a => Fin.ext ?_
  match a with
  | ⟨0, _⟩ => show win0_2.index t (0 : Fin 2) * 4096 + 1 * p.val = P.val; rw [e4, hP]; omega
  | ⟨1, _⟩ => show win0_2.index t (1 : Fin 2) * 512 + 1 * q.val = q.val; rw [e5]; omega

end Cert.KernelIdeal.Blocks

end
-- ==== Proof.Result.lean ====
/-
  The kernel's result array after the run is the specification `G` of the two argument arrays.

  Point `t` writes back `body (codes block t) (table)`. At `(p, q)` of the block this is one minus the maximum over the
  four slabs of the block similarity; slab `k` at row `q` is table row `512·k + q`, that is centroid `k` of class `q`
  normalised, and the codes block's row `p` is codes row `4096·t + p`: so the block similarity is `sim` at
  `(4096·t + p, q, k)`, and what point `t` writes back is block `t` of `G`. The four blocks of 4096 rows tile the
  16384 rows of the result (row `r` is in block `r / 4096`), so the whole array ends at `G`.
-/
import proofs.«147638_g82910048682287_cont_9to1_m_1149_22_alg».proof.Proof.Gen.KernelIdeal.Value
import proofs.«147638_g82910048682287_cont_9to1_m_1149_22_alg».proof.Proof.Carried
import proofs.«147638_g82910048682287_cont_9to1_m_1149_22_alg».proof.Proof.Payload
import proofs.«147638_g82910048682287_cont_9to1_m_1149_22_alg».proof.Proof.Blocks
import proofs.«147638_g82910048682287_cont_9to1_m_1149_22_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Pieces Cert.KernelIdeal.Carried Cert.KernelIdeal.Payload
  Cert.KernelIdeal.Blocks Cert.Spec

variable (m : (ℓ : Loc nD τ sig) → Buf (Elt Ideal) ℓ) (ρ : Dev nD → PrngReg)

/-- The codes and the centroids as launched. -/
abbrev codes (c : Dev nD) : S16384x256.Idx → EReal := m ((c : Thread nD τ).loc main_arg0)
abbrev cents (c : Dev nD) : S512x4x256.Idx → EReal := m ((c : Thread nD τ).loc main_arg1)

/-- A slab of 512 rows starting at row `o` of a 2048-row table, read at `(q, d)`, is the table at `(o + q, d)`. -/
theorem slab_apply (z : Vec Ideal S2048x256 .bf16) (o : ℕ)
    (inb : ∀ a, (![o, 0] : Fin 2 → Nat) a + S512x256.size a ≤ S2048x256.size a) (q : Fin 512) (d : Fin 256) (R : Fin 2048)
    (hR : R.val = o + q.val) :
    View.ld (Val := Elt Ideal) (e' := EltTy.bf16) z (Rect.unit (s := S2048x256) ![o, 0] S512x256.size inb) (ix2 q d) = z (ix2 R d) := by
  show z ((Rect.unit (s := S2048x256) ![o, 0] S512x256.size inb).emb (ix2 q d)) = _
  refine congrArg z (funext fun a => Fin.ext ?_)
  match a with
  | ⟨0, _⟩ => show o + 1 * q.val = R.val; omega
  | ⟨1, _⟩ => show 0 + 1 * d.val = d.val; omega

/-- A normalised entry of a block of code rows that sits at rows `P` of the codes is the normalised entry of the codes. -/
theorem code_entry (X : S16384x256.Idx → EReal) (x : FVec Ideal S4096x256 .f32) (p : Fin 4096) (P : Fin 16384)
    (hx : ∀ d : Fin 256, x (ix2 p d) = X (ix2 P d)) (d : Fin 256) :
    nrm (x (ix2 p d)) (∑ e : Fin 256, x (ix2 p e) * x (ix2 p e)) = codeN X P d := by
  unfold codeN
  rw [hx d]
  refine congrArg (nrm _) (Finset.sum_congr rfl fun e _ => ?_)
  rw [hx e]

/-- Row `512·k + q` of the table the first point computes is centroid `k` of class `q`, normalised. -/
theorem table_entry (c : Dev nD) (k : Fin 4) (q : Fin 512) (d : Fin 256) (R : Fin 2048) (hR : R.val = 512 * k.val + q.val) :
    table m c (ix2 R d) = centN (cents m c) q k d := by
  unfold table centN
  refine (table_apply (iblk m c 1 ⟨0, N_pos⟩) R d).trans ?_
  rw [table_block m c _ R d, table_read m c k q d R hR]
  refine congrArg (nrm _) (Finset.sum_congr rfl fun e _ => ?_)
  rw [table_block m c _ R e, table_read m c k q e R hR]

/-- The block similarity of code rows sitting at rows `P` of the codes against a slab whose row `q` is centroid `k` of
    class `q` normalised is the specification's similarity. -/
theorem sim_block (X : S16384x256.Idx → EReal) (Z : S512x4x256.Idx → EReal) (x : FVec Ideal S4096x256 .f32)
    (s : FVec Ideal S512x256 .bf16) (p : Fin 4096) (q : Fin 512) (P : Fin 16384) (k : Fin 4)
    (hx : ∀ d : Fin 256, x (ix2 p d) = X (ix2 P d)) (hs : ∀ d : Fin 256, s (ix2 q d) = centN Z q k d) :
    blockSim x s p q = sim X Z P q k := by
  unfold blockSim sim
  refine Finset.sum_congr rfl fun d _ => ?_
  rw [hs d, code_entry X x p P hx d]

/-- What point `t` writes back is block `t` of `G`. -/
theorem flushed_eq (c : Dev nD) (t : Fin cfg0.N) :
    (dats m 0 c).flushed 2 t = ((cfg0.win 2).blk t).view.read (Elt Ideal) (G (codes m c) (cents m c)) := by
  rw [Value.flushed2 m c t, outsAt_eq m c t.val t.isLt]
  funext y
  obtain ⟨p, q, rfl⟩ : ∃ (p : Fin 4096) (q : Fin 512), y = ix2 p q := ⟨y 0, y 1, eq_ix2 y⟩
  have hN : cfg0.N = 4 := N_0
  have ht : t.val < 4 := hN ▸ t.isLt
  have hp := p.isLt
  have hq := q.isLt
  show body (iblk m c 0 t) (table m c) (ix2 p q) = G (codes m c) (cents m c) (((cfg0.win 2).blk t).view.emb (ix2 p q))
  have hx : ∀ d : Fin 256, (iblk m c 0 t : FVec Ideal S4096x256 .f32) (ix2 p d)
      = codes m c (ix2 (⟨4096 * t.val + p.val, by omega⟩ : Fin 16384) d) := fun d => codes_block m c t p d _ rfl
  rw [out_emb t p q ⟨4096 * t.val + p.val, by omega⟩ rfl, G_apply]
  unfold body
  refine (out_apply (iblk m c 0 t) (slab0 (table m c)) (slab1 (table m c)) (slab2 (table m c)) (slab3 (table m c)) p q).trans ?_
  unfold Spec.dist
  rw [sim_block (codes m c) (cents m c) (iblk m c 0 t) (slab0 (table m c)) p q _ 0 hx
      (fun d => (slab_apply (table m c) 0 _ q d ⟨q.val, by omega⟩ (by simp)).trans (table_entry m c 0 q d _ (by simp))),
    sim_block (codes m c) (cents m c) (iblk m c 0 t) (slab1 (table m c)) p q _ 1 hx
      (fun d => (slab_apply (table m c) 512 _ q d ⟨512 + q.val, by omega⟩ rfl).trans (table_entry m c 1 q d _ (by simp))),
    sim_block (codes m c) (cents m c) (iblk m c 0 t) (slab2 (table m c)) p q _ 2 hx
      (fun d => (slab_apply (table m c) 1024 _ q d ⟨1024 + q.val, by omega⟩ rfl).trans (table_entry m c 2 q d _ (by simp))),
    sim_block (codes m c) (cents m c) (iblk m c 0 t) (slab3 (table m c)) p q _ 3 hx
      (fun d => (slab_apply (table m c) 1536 _ q d ⟨1536 + q.val, by omega⟩ rfl).trans (table_entry m c 3 q d _ (by simp)))]

/-- An index of the result is in point `t`'s block iff each coordinate is in the block's range on its axis. -/
theorem mem_blk (t : Fin cfg0.N) (i : S16384x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v3).slice (win0_2.rect t)).set ↔ _
  rw [View.set_slice_whole, Rect.mem_set_unit]
  exact Iff.rfl

/-- The result array after the run. -/
theorem final (c : Dev nD) : (dats m 0 c).arrAt 2 cfg0.N = G (codes m c) (cents m c) :=
  (dats m 0 c).arrAt_eq_of_cover 2 (G (codes m c) (cents m c)) (fun t _ => flushed_eq m c t) fun i => by
    have hN : cfg0.N = 4 := N_0
    have hi0 : (i 0).val < 16384 := (i 0).isLt
    have hi1 : (i 1).val < 512 := (i 1).isLt
    have hlt : (i 0).val / 4096 < cfg0.N := by rw [hN]; omega
    obtain ⟨-, -, -, -, e4, e5⟩ := idx_facts ⟨(i 0).val / 4096, hlt⟩
    refine ⟨⟨(i 0).val / 4096, hlt⟩, flush0_2 _, ?_⟩
    rw [mem_blk]
    intro a
    match a with
    | ⟨0, _⟩ =>
      show win0_2.index ⟨(i 0).val / 4096, hlt⟩ (0 : Fin 2) * 4096 ≤ (i 0).val
        ∧ (i 0).val < win0_2.index ⟨(i 0).val / 4096, hlt⟩ (0 : Fin 2) * 4096 + 4096
      rw [e4]; dsimp only; omega
    | ⟨1, _⟩ =>
      show win0_2.index ⟨(i 0).val / 4096, hlt⟩ (1 : Fin 2) * 512 ≤ (i 1).val
        ∧ (i 1).val < win0_2.index ⟨(i 0).val / 4096, hlt⟩ (1 : Fin 2) * 512 + 512
      rw [e5]; omega

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v3) = G (codes m c) (cents m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefSide.lean ====
/-
  The reference, read index by index: its result at `(b, c)` is the specification's `dist`.

  The reference normalises each code row and each centroid by dividing by `max (√(sum of squares)) ε`, contracts the
  normalised codes with the normalised centroids over the 256 features, subtracts from one, and takes the minimum over a
  class's four centroids from `+∞`. Each stage is read at an index from the stage before; the division is the
  specification's product with the reciprocal square root (`Spec.nrm_eq_div`: a sum of squares is never negative), and
  the minimum of `1 − sim` is `1 −` the maximum (`Spec.dist_eq_min`).
-/
import proofs.«147638_g82910048682287_cont_9to1_m_1149_22_alg».proof.Proof.Gen.ReferenceIdeal.Read
import proofs.«147638_g82910048682287_cont_9to1_m_1149_22_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Read Cert.Spec
open Idealize.ShloMosaic Idealize.ShloMosaic.ValueIdx

/-- A normalised code entry. -/
theorem codes_apply (X : S16384x256.Idx → EReal) (b : Fin 16384) (d : Fin 256) :
    val_main_v7 (F := Ideal) X (ix2 b d) = codeN X b d := by
  have e1 : ∀ e : Fin 256, idx_main_v1 (idx_main_v2 (idx_main_v6 (ix2 b d))) e = ix2 b e := fun e =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e1, Ideal.hostDivf_def, Ideal.hostUnary_sqrt_def, Ideal.maximumf_def, Ideal.mulf_def,
    Ideal.ofBits_def, Ideal.ofBits_zero_f32, zero_add]
  unfold codeN
  rw [nrm_eq_div _ _ (sumsq_nonneg _ _)]

/-- A normalised centroid entry. -/
theorem cents_apply (Z : S512x4x256.Idx → EReal) (c : Fin 512) (k : Fin 4) (d : Fin 256) :
    val_main_v15 (F := Ideal) Z (ix3 c k d) = centN Z c k d := by
  have e1 : ∀ e : Fin 256, idx_main_v9 (idx_main_v10 (idx_main_v14 (ix3 c k d))) e = ix3 c k e := fun e =>
    funext fun a => Fin.ext (by match a with | ⟨0, _⟩ => rfl | ⟨1, _⟩ => rfl | ⟨2, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e1, Ideal.hostDivf_def, Ideal.hostUnary_sqrt_def, Ideal.maximumf_def, Ideal.mulf_def,
    Ideal.ofBits_def, Ideal.ofBits_zero_f32, zero_add]
  unfold centN
  rw [nrm_eq_div _ _ (sumsq_nonneg _ _)]

/-- One similarity. -/
theorem sim_apply (X : S16384x256.Idx → EReal) (Z : S512x4x256.Idx → EReal) (b : Fin 16384) (c : Fin 512) (k : Fin 4) :
    val_main_v16 (F := Ideal) X Z (ix3 b c k) = sim X Z b c k := by
  have el : ∀ d : Fin 256, lidx_main_v16 (ix3 b c k) d = ix2 b d := fun d =>
    funext fun a => Fin.ext (by match a with | ⟨0, _⟩ => rfl | ⟨1, _⟩ => rfl)
  have er : ∀ d : Fin 256, ridx_main_v16 (ix3 b c k) d = ix3 c k d := fun d =>
    funext fun a => Fin.ext (by match a with | ⟨0, _⟩ => rfl | ⟨1, _⟩ => rfl | ⟨2, _⟩ => rfl)
  rw [val_main_v16_apply]
  unfold sim
  exact Finset.sum_congr rfl fun d _ => by rw [el, er, codes_apply, cents_apply]

/-- The reference's result at `(b, c)`. -/
theorem result_apply (X : S16384x256.Idx → EReal) (Z : S512x4x256.Idx → EReal) (b : Fin 16384) (c : Fin 512) :
    val_main_v19 (F := Ideal) X Z (ix2 b c) = dist X Z b c := by
  have hR : S16384x512x4.Reduces [2] S16384x512 := by decide
  unfold val_main_v19
  rw [Host.reduce_eq_fold_single FloatOps.minimumf _ _ Facts₀.reducesTo_S16384x512x4_S16384x512_d2 hR Facts₀.h_S_ (ix2 b c), dist_eq_min,
    val_main_cst_4_apply]
  show Finset.fold min (Ideal.ofBits .f32 0x7F800000#32) _ (Finset.univ : Finset (Fin 4)) = _
  rw [ofBits_inf]
  refine congrArg (fun g => Finset.fold min ⊤ g (Finset.univ : Finset (Fin 4))) (funext fun (k : Fin 4) => ?_)
  have ek : hR.lift (ix2 b c) k = ix3 b c k :=
    funext fun a => Fin.ext (by match a with | ⟨0, _⟩ => rfl | ⟨1, _⟩ => rfl | ⟨2, _⟩ => rfl)
  show val_main_v18 (F := Ideal) X Z (hR.lift (ix2 b c) k) = _
  rw [ek, val_main_v18_apply, val_main_v17_apply, val_main_cst_3_apply, sim_apply]
  rfl

/-- The reference's whole result is the specification. -/
theorem result_eq (X : S16384x256.Idx → EReal) (Z : S512x4x256.Idx → EReal) :
    val_main_v19 (F := Ideal) X Z = G X Z := by
  funext j
  obtain ⟨b, c, rfl⟩ : ∃ (b : Fin 16384) (c : Fin 512), j = ix2 b c := ⟨j 0, j 1, eq_ix2 j⟩
  rw [result_apply, G_apply]

end Cert.ReferenceIdeal.RefValue

end
-- ==== Proof.lean ====
/-
  Per-class cosine distance to the nearest of four centroids: the Pallas kernel against its jnp reference, on the
  extended reals.

  Both compute `out[b, c] = 1 − max_k ⟨ĉodes[b], ĉents[c, k]⟩` with rows L2-normalised under a floor. The kernel floors
  the SUM OF SQUARES at the constant the certificate names `ε²` and multiplies by the reciprocal square root; the
  reference floors the NORM at `ε` and divides: one number for every row (Proof/Spec.lean). The kernel normalises the
  centroids once, at the first grid point, into a scratch buffer that the later points read (Proof/Pieces.lean,
  Proof/Carried.lean), contracts 4096 code rows at a time against the four 512-row slabs of that table and takes the
  maximum (Proof/Payload.lean); the blocks it reads and writes are rows of the arguments and of the result
  (Proof/Blocks.lean), so its result array is the specification (Proof/Result.lean). The reference read stage by stage
  is the same specification (Proof/RefSide.lean). The three frames are the generated runs; the idealization only names
  the floor, once at each of its two sites.
-/
import proofs.«147638_g82910048682287_cont_9to1_m_1149_22_alg».proof.Defs
import proofs.«147638_g82910048682287_cont_9to1_m_1149_22_alg».proof.Proof.Gen.Kernel
import proofs.«147638_g82910048682287_cont_9to1_m_1149_22_alg».proof.Proof.Gen.Kernel.Frame
import proofs.«147638_g82910048682287_cont_9to1_m_1149_22_alg».proof.Proof.Gen.KernelIdeal
import proofs.«147638_g82910048682287_cont_9to1_m_1149_22_alg».proof.Proof.Gen.KernelIdeal.Frame
import proofs.«147638_g82910048682287_cont_9to1_m_1149_22_alg».proof.Proof.Gen.KernelIdeal.Value
import proofs.«147638_g82910048682287_cont_9to1_m_1149_22_alg».proof.Proof.Gen.ReferenceIdeal
import proofs.«147638_g82910048682287_cont_9to1_m_1149_22_alg».proof.Proof.Gen.ReferenceIdeal.Run
import proofs.«147638_g82910048682287_cont_9to1_m_1149_22_alg».proof.Proof.Gen.ReferenceIdeal.Read
import proofs.«147638_g82910048682287_cont_9to1_m_1149_22_alg».proof.Proof.Gen.Pre_finite_inputs
import proofs.«147638_g82910048682287_cont_9to1_m_1149_22_alg».proof.Proof.Result
import proofs.«147638_g82910048682287_cont_9to1_m_1149_22_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The table gives the floor's name the value `ε²`; the printed constant is that value at both of its sites. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- Both runs end with the result array at the specification `G` of arguments that agree. -/
theorem algebraic : Cert.algebraic_KernelIdeal_ReferenceIdeal := by
  intro m ρ m' ρ' _ hagree
  refine ⟨fun c => Cert.Spec.G (Cert.KernelIdeal.Result.codes m c) (Cert.KernelIdeal.Result.cents m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
